-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8192x2048 .f32) (main_arg1 : FVec F S2048x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8192x2048 : Shape := ⟨2, ![8192, 2048]⟩
abbrev S2048x2048 : Shape := ⟨2, ![2048, 2048]⟩
abbrev S512x2048 : Shape := ⟨2, ![512, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2048x2048_S2048x2048_1_0 : S2048x2048.Transposes [1, 0] S2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .f32 = 32 ∨ (Rect.block (s := S8192x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048x2048, .f32⟩
  | .hbm, ⟨3, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  transposes_S2048x2048_S2048x2048_1_0 : S2048x2048.Transposes [1, 0] S2048x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1024_S512x1024_0_0 : ∀ a, (![0, 0] : Fin 2 → Nat) a + S512x1024.size a ≤ S512x1024.size a
  h_S512x1024 : 0 < S512x1024.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x2048.size a
  hwx0_0 : ∀ i : grid0.Coords, EltTy.bits .f32 = 32 ∨ (Rect.block (s := S8192x2048) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x2048.size a
  hwx0_1 : ∀ i : grid0.Coords, EltTy.bits .f32 = 32 ∨ (Rect.block (s := S2048x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x2048.size a
  hwx0_2 : ∀ i : grid0.Coords, EltTy.bits .f32 = 32 ∨ (Rect.block (s := S8192x2048) S512x512.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.ProductSpec.lean ====
/-
  The matrix product both programs compute, as one function of the two arrays, and the law that joins their sums.

  With `x` of extents [8192, 2048] and `w` of extents [2048, 2048] (the weight already transposed, so that its rows
  are the contracted coordinate), the result at `(r, q)` is `∑ k, x (r, k) * w (k, q)` over the 2048 contracted
  coordinates. One program forms this sum whole. The other starts an accumulator at zero and adds the sum over the
  first 1024 coordinates, then the sum over the last 1024. Adding zero changes nothing and a finite sum may be
  regrouped, in any commutative additive monoid: on the extended reals the two agree for all inputs, infinite ones
  included, so finiteness of the inputs is never used.
-/
import Idealize.ShloMosaic.PureOps.Ideal
import Idealize.ShloMosaic.Lib.ValueIdx
import proofs.«103228_g2000009465871489_pallasbulk_303_2_alg».proof.Proof.LibGroupedSum

open scoped BigOperators

namespace ProductSpec

open Idealize.ShloMosaic Idealize.ShloMosaic.ValueIdx

/-- The indices of the left operand and of the result: 8192 rows, 2048 columns. -/
abbrev XIdx : Type := (⟨2, ![8192, 2048]⟩ : Shape).Idx
/-- The indices of the transposed weight: 2048 contracted rows, 2048 columns. -/
abbrev WIdx : Type := (⟨2, ![2048, 2048]⟩ : Shape).Idx

/-- The product at `(r, q)`: the sum over the contracted coordinate of `x (r, k) * w (k, q)`. -/
noncomputable def product (x : XIdx → EReal) (w : WIdx → EReal) : XIdx → EReal :=
  fun i => ∑ k : Fin 2048, x (ix2 (i 0) k) * w (ix2 k (i 1))

/-- An index of the left operand is determined by its two coordinates' values. -/
theorem xIdx_eq (a : XIdx) (r : Fin 8192) (k : Fin 2048) (h0 : (a 0).val = r.val) (h1 : (a 1).val = k.val) :
    a = ix2 r k := by
  funext d
  match d with
  | ⟨0, _⟩ => exact Fin.ext h0
  | ⟨1, _⟩ => exact Fin.ext h1

/-- An index of the transposed weight is determined by its two coordinates' values. -/
theorem wIdx_eq (b : WIdx) (k : Fin 2048) (q : Fin 2048) (h0 : (b 0).val = k.val) (h1 : (b 1).val = q.val) :
    b = ix2 k q := by
  funext d
  match d with
  | ⟨0, _⟩ => exact Fin.ext h0
  | ⟨1, _⟩ => exact Fin.ext h1

/-- The whole contraction of a row of entries `X` with a column of entries `W`, when they are `x` at coordinates
    `(r, k)` and `w` at coordinates `(k, q)`. -/
theorem whole_eq_product (x : XIdx → EReal) (w : WIdx → EReal) (i : XIdx) (X W : Fin 2048 → EReal)
    (a : Fin 2048 → XIdx) (b : Fin 2048 → WIdx)
    (hX : ∀ k, X k = x (a k)) (hW : ∀ k, W k = w (b k))
    (ha : ∀ k, ((a k) 0).val = (i 0).val ∧ ((a k) 1).val = k.val)
    (hb : ∀ k, ((b k) 0).val = k.val ∧ ((b k) 1).val = (i 1).val) :
    ∑ k : Fin 2048, X k * W k = product x w i := by
  unfold product
  refine Finset.sum_congr rfl fun k _ => ?_
  rw [hX k, hW k, xIdx_eq (a k) (i 0) k (ha k).1 (ha k).2, wIdx_eq (b k) k (i 1) (hb k).1 (hb k).2]

/-- Zero, plus the sum over the first 1024 contracted coordinates, plus the sum over the last 1024, is the whole
    contraction: the half `s` reads `x` at column `1024 s + k` and `w` at row `1024 s + k`. -/
theorem halves_eq_product (x : XIdx → EReal) (w : WIdx → EReal) (i : XIdx) (X0 W0 X1 W1 : Fin 1024 → EReal)
    (a0 a1 : Fin 1024 → XIdx) (b0 b1 : Fin 1024 → WIdx)
    (hX0 : ∀ k, X0 k = x (a0 k)) (hW0 : ∀ k, W0 k = w (b0 k))
    (hX1 : ∀ k, X1 k = x (a1 k)) (hW1 : ∀ k, W1 k = w (b1 k))
    (ha0 : ∀ k, ((a0 k) 0).val = (i 0).val ∧ ((a0 k) 1).val = k.val)
    (ha1 : ∀ k, ((a1 k) 0).val = (i 0).val ∧ ((a1 k) 1).val = 1024 + k.val)
    (hb0 : ∀ k, ((b0 k) 0).val = k.val ∧ ((b0 k) 1).val = (i 1).val)
    (hb1 : ∀ k, ((b1 k) 0).val = 1024 + k.val ∧ ((b1 k) 1).val = (i 1).val) :
    (0 + ∑ k : Fin 1024, X0 k * W0 k) + ∑ k : Fin 1024, X1 k * W1 k = product x w i := by
  unfold product
  rw [GroupedSum.sum_groups (J := 2) (B := 1024) (K := 2048) rfl, Fin.sum_univ_two, zero_add]
  congr 1
  · refine Finset.sum_congr rfl fun k _ => ?_
    rw [hX0 k, hW0 k,
      xIdx_eq (a0 k) (i 0) ⟨(0 : Fin 2).val * 1024 + k.val, GroupedSum.group_lt rfl 0 k⟩ (ha0 k).1
        (by show ((a0 k) 1).val = (0 : Fin 2).val * 1024 + k.val; rw [(ha0 k).2]; simp),
      wIdx_eq (b0 k) ⟨(0 : Fin 2).val * 1024 + k.val, GroupedSum.group_lt rfl 0 k⟩ (i 1)
        (by show ((b0 k) 0).val = (0 : Fin 2).val * 1024 + k.val; rw [(hb0 k).1]; simp) (hb0 k).2]
  · refine Finset.sum_congr rfl fun k _ => ?_
    rw [hX1 k, hW1 k,
      xIdx_eq (a1 k) (i 0) ⟨(1 : Fin 2).val * 1024 + k.val, GroupedSum.group_lt rfl 1 k⟩ (ha1 k).1
        (by show ((a1 k) 1).val = (1 : Fin 2).val * 1024 + k.val; rw [(ha1 k).2]; simp),
      wIdx_eq (b1 k) ⟨(1 : Fin 2).val * 1024 + k.val, GroupedSum.group_lt rfl 1 k⟩ (i 1)
        (by show ((b1 k) 0).val = (1 : Fin 2).val * 1024 + k.val; rw [(hb1 k).1]; simp) (hb1 k).2]

end ProductSpec
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«103228_g2000009465871489_pallasbulk_303_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.KernelPayload.lean ====
/-
  The one-pass program's payload read at an entry, on the extended reals.

  The body narrows its [512, 2048] tile of the left operand to bf16 (the identity on the extended reals), takes the
  whole [2048, 2048] transposed weight through a shape cast between equal shapes, and multiplies them on the matrix
  unit into a zero accumulator: at entry `(p, q)` the result is `∑ k, v0 (p, k) * v2 (k, q)` over all 2048 contracted
  coordinates.
-/
import proofs.«103228_g2000009465871489_pallasbulk_303_2_alg».proof.Proof.Gen.KernelIdeal.Skeleton
import proofs.«103228_g2000009465871489_pallasbulk_303_2_alg».proof.Proof.LibDotRecord
import Idealize.ShloMosaic.Lib.Pipeline.Value
import Idealize.ShloMosaic.PureOps.Ideal.Laws

open scoped BigOperators

noncomputable section

namespace Cert.KernelIdeal.KerValue

open Cert.KernelIdeal Cert.KernelIdeal.Gen Idealize.ShloMosaic Idealize.ShloMosaic.ValueIdx

/-- The payload at an entry: the tile's row contracted with the weight's column. -/
theorem payload_apply (v0 : FVec Ideal S512x2048 .f32) (v2 : FVec Ideal S2048x2048 .bf16) (j : S512x2048.Idx) :
    k0_pay1 (F := Ideal) v0 v2 j = ∑ k : Fin 2048, v0 (ix2 (j 0) k) * v2 (ix2 k (j 1)) := by
  obtain ⟨p, q, rfl⟩ : ∃ (p : Fin 512) (q : Fin 2048), j = ix2 p q := ⟨j 0, j 1, eq_ix2 j⟩
  unfold k0_pay1
  simp only [shapeCast_self]
  exact DotRecord.matmul_zero_apply dot_S512x2048_S2048x2048_S512x2048_1_0_0_1_n_n rfl rfl rfl rfl rfl rfl
    (truncf .bf16 v0 bitsLt_bf16_f32) v2 none p q

end Cert.KernelIdeal.KerValue

end
-- ==== Proof.KernelValue.lean ====
/-
  The one-pass program's result array is the product of its arguments.

  The grid has 16 points; point `t` handles rows `512 t … 512 t + 511`. Its left tile is those rows of `x` with all
  2048 columns, its right operand is the whole transposed weight at every point, and it writes back the [512, 2048]
  tile of rows `512 t …` of the result. So at a tile entry `(p, q)` the payload's sum over `k` of
  `tile (p, k) * weight (k, q)` is the sum over `k` of `x (512 t + p, k) * w (k, q)`: the product at the array entry the
  tile entry lands on. The 16 tiles cover the 8192 rows (row `r` lies in tile `r / 512`), so the whole array ends at
  the product. The weight the region finds is what the two host operations before it made of the argument: its
  transpose, narrowed to bf16, which on the extended reals is the transpose itself.
-/
import proofs.«103228_g2000009465871489_pallasbulk_303_2_alg».proof.Proof.Gen.KernelIdeal.Value
import proofs.«103228_g2000009465871489_pallasbulk_303_2_alg».proof.Proof.ProductSpec
import proofs.«103228_g2000009465871489_pallasbulk_303_2_alg».proof.Proof.KernelPayload
import Idealize.ShloMosaic.Lib.Pipeline.Value
import Idealize.ShloMosaic.Lib.StableHlo.Run

set_option maxRecDepth 16384

open scoped BigOperators

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The zero offsets of a rank-2 rectangle, however spelt. -/
theorem zero_offsets : (![0, 0] : Fin 2 → Nat) = fun _ => 0 := funext fun a => by fin_cases a <;> rfl

/-- The transposed weight: the host's transpose of the second argument. -/
abbrev wT (c : Dev nD) : S2048x2048.Idx → EReal :=
  transpose S2048x2048 [1, 0] (m ((c : Thread nD τ).loc main_arg1)) transposes_S2048x2048_S2048x2048_1_0

/-- The result the program should leave: the product of the first argument with the transposed weight. -/
abbrev result (c : Dev nD) : S8192x2048.Idx → EReal :=
  ProductSpec.product (m ((c : Thread nD τ).loc main_arg0)) (wT m c)

/-- The right operand's array as the region finds it: the transpose, narrowed, which reads as the transpose. -/
theorem weight_at_entry (c : Dev nD) : (V m c main_v1 : S2048x2048.Idx → EReal) = wT m c := by
  dsimp only [Gen.V, Gen.hostOps0]
  after_results
  rfl

/-- The block index of each operand at each of the 16 points: the left tile and the output tile sit at row block `t` and column
    block 0; the weight's one block is at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is tile `t` of the product. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero zero_offsets]
  simp only [View.ld_unit_zero (S := S512x2048) zero_offsets, View.ld_unit_zero (S := S2048x2048) zero_offsets]
  obtain ⟨e00, e01, e10, e11, e20, e21⟩ := idx_facts t
  funext j
  show k0_pay1 (F := Ideal) (iblk m c 0 t) (iblk m c 1 t) j = result m c (((cfg0.win 2).blk t).view.emb j)
  refine (payload_apply (iblk m c 0 t) (iblk m c 1 t) j).trans ?_
  refine ProductSpec.whole_eq_product (m ((c : Thread nD τ).loc main_arg0)) (wT m c) (((cfg0.win 2).blk t).view.emb j)
    (fun k => iblk m c 0 t (ix2 (j 0) k)) (fun k => iblk m c 1 t (ix2 k (j 1)))
    (fun k => ((cfg0.win 0).blk t).view.emb (ix2 (j 0) k)) (fun k => ((cfg0.win 1).blk t).view.emb (ix2 k (j 1)))
    (fun k => ?_) (fun k => ?_) (fun k => ⟨?_, ?_⟩) (fun k => ⟨?_, ?_⟩)
  · show V m c main_arg0 _ = _
    rw [V_main_arg0]
  · show (V m c main_v1 : S2048x2048.Idx → EReal) _ = _
    rw [weight_at_entry]
  · show win0_0.index t (0 : Fin 2) * 512 + 1 * (j 0).val = win0_2.index t (0 : Fin 2) * 512 + 1 * (j 0).val
    rw [e00, e20]
  · show win0_0.index t (1 : Fin 2) * 2048 + 1 * k.val = k.val
    rw [e01]; omega
  · show win0_1.index t (0 : Fin 2) * 2048 + 1 * k.val = k.val
    rw [e10]; omega
  · show win0_1.index t (1 : Fin 2) * 2048 + 1 * (j 1).val = win0_2.index t (1 : Fin 2) * 2048 + 1 * (j 1).val
    rw [e11, e21]

/-- An index of the result array is in point `t`'s tile iff each coordinate is in the tile's range on its axis. -/
theorem mem_tile (t : Fin cfg0.N) (i : S8192x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- Every index of the result array lies in the tile of the point `row / 512`, which writes back. -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 16 := N_0
  have ht : (i 0).val / 512 < cfg0.N := by rw [hN]; omega
  obtain ⟨-, -, -, -, e20, e21⟩ := idx_facts ⟨(i 0).val / 512, ht⟩
  refine ⟨⟨(i 0).val / 512, ht⟩, flush0_2 _, ?_⟩
  rw [mem_tile]
  intro a
  match a with
  | ⟨0, _⟩ =>
    show win0_2.index ⟨(i 0).val / 512, ht⟩ (0 : Fin 2) * 512 ≤ (i 0).val
      ∧ (i 0).val < win0_2.index ⟨(i 0).val / 512, ht⟩ (0 : Fin 2) * 512 + 512
    rw [e20]; show (i 0).val / 512 * 512 ≤ (i 0).val ∧ (i 0).val < (i 0).val / 512 * 512 + 512; omega
  | ⟨1, _⟩ =>
    show win0_2.index ⟨(i 0).val / 512, ht⟩ (1 : Fin 2) * 2048 ≤ (i 1).val
      ∧ (i 1).val < win0_2.index ⟨(i 0).val / 512, ht⟩ (1 : Fin 2) * 2048 + 2048
    rw [e21]; omega

/-- The result array after the run is the product. -/
theorem final (c : Dev nD) : (dats m 0 c).arrAt 2 cfg0.N = result m c :=
  (dats m 0 c).arrAt_eq_of_cover 2 (result m c) (fun t _ => flushed_eq m c t) cover

/-- The run, with the result array at the product of the arguments and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KerValue

end
-- ==== Proof.RefPayloads.lean ====
/-
  The tiled program's two payloads read at an entry, on the extended reals.

  The zero payload is the zero word spread over the [512, 512] accumulator: every entry is 0. The accumulate payload
  takes what the accumulator held, `v3`, an [512, 1024] tile `v4` of the left operand and a [1024, 512] tile `v5` of
  the transposed weight, and returns `v3 + v4 · v5`; the matrix unit accumulates into zero, so at entry `(p, q)` it is
  `v3 (p, q) + ∑ k, v4 (p, k) * v5 (k, q)` over the tile's 1024 contracted coordinates. The shape casts around it
  are between equal shapes. Two accumulate steps over the zero payload therefore read
  `(0 + ∑ k, X0 (p, k) * W0 (k, q)) + ∑ k, X1 (p, k) * W1 (k, q)`.
-/
import proofs.«103228_g2000009465871489_pallasbulk_303_2_alg».proof.Proof.Gen.ReferenceIdeal.Skeleton
import proofs.«103228_g2000009465871489_pallasbulk_303_2_alg».proof.Proof.LibDotRecord
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx

/-- Every entry of the zero payload is 0. -/
theorem zero_payload_apply (j : S512x512.Idx) : k0_pay1 (F := Ideal) j = 0 := by
  unfold k0_pay1
  simp only [shapeCast_self]
  exact Ideal.ofBits_zero_f32

/-- The accumulate payload at an entry: what the accumulator held there, plus the tiles' contraction. -/
theorem acc_payload_apply (v3 : FVec Ideal S512x512 .f32) (v4 : FVec Ideal S512x1024 .f32) (v5 : FVec Ideal S1024x512 .f32)
    (j : S512x512.Idx) :
    k0_pay2 (F := Ideal) v3 v4 v5 j = v3 j + ∑ k : Fin 1024, v4 (ix2 (j 0) k) * v5 (ix2 k (j 1)) := by
  obtain ⟨p, q, rfl⟩ : ∃ (p : Fin 512) (q : Fin 512), j = ix2 p q := ⟨j 0, j 1, eq_ix2 j⟩
  unfold k0_pay2
  simp only [shapeCast_self]
  exact congrArg (v3 (ix2 p q) + ·)
    (DotRecord.matmul_zero_apply dot_S512x1024_S1024x512_S512x512_1_0_0_1_n_n rfl rfl rfl rfl rfl rfl v4 v5 none p q)

/-- Two accumulate steps over the zero payload, at an entry. -/
theorem two_steps_apply (X0 X1 : FVec Ideal S512x1024 .f32) (W0 W1 : FVec Ideal S1024x512 .f32) (j : S512x512.Idx) :
    k0_pay2 (F := Ideal) (k0_pay2 (F := Ideal) (k0_pay1 (F := Ideal)) X0 W0) X1 W1 j
      = (0 + ∑ k : Fin 1024, X0 (ix2 (j 0) k) * W0 (ix2 k (j 1))) + ∑ k : Fin 1024, X1 (ix2 (j 0) k) * W1 (ix2 k (j 1)) := by
  rw [acc_payload_apply, acc_payload_apply, zero_payload_apply]

end Cert.ReferenceIdeal.RefValue

end
-- ==== Proof.RefPieces.lean ====
/-
  What each case of the tiled program's body leaves behind, as terms over the body's two payloads.

  The body keeps a [512, 512] accumulator between grid points. At a point whose last grid coordinate is 0 it stores
  the zero payload into the accumulator, reads it back, and stores the accumulate payload (what was read, plus the
  product of the point's two input tiles); it writes nothing to the output tile. At a point whose last coordinate is 1
  it reads the accumulator the previous point left, stores the accumulate payload over it, reads that back, and stores
  it whole into the output tile. Every store and load goes through the whole-buffer rectangle at zero offsets, so a
  later whole store hides the earlier ones and a load after a whole store reads the stored payload.
-/
import proofs.«103228_g2000009465871489_pallasbulk_303_2_alg».proof.Proof.Gen.ReferenceIdeal.Frame
import Idealize.ShloMosaic.Lib.Pipeline.Value
import Idealize.ShloMosaic.Lib.Tactic

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.Tactic

variable {F : FTy → Type} [FloatOps F]

/-- The zero offsets of a rank-2 rectangle, however spelt. -/
theorem zero_offsets : (![0, 0] : Fin 2 → Nat) = fun _ => 0 := funext fun a => by fin_cases a <;> rfl

/-- After a point of the first kind the accumulator holds the accumulate payload over the zero payload:
    zero plus the product of the point's tiles. -/
theorem acc_after_first (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S512x512 .f32) (harg5 : arg5.IsWhole) (arg6 : Memref sig .tc .vmem S512x512 .f32) (harg6 : arg6.IsWhole) (hc0 : cond0_0 i) (hc1 : ¬cond0_1 i)
    (x0 : Vec F S512x1024 .f32) (x1 : Vec F S1024x512 .f32) :
    sout0_A_0 c i arg3 harg3 arg4 harg4 arg5 harg5 arg6 harg6 hc0 hc1 x0 x1 = k0_pay2 (k0_pay1 (F := F)) x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero zero_offsets]
  simp only [View.readAt_eq_ld, harg3.read_unread, harg4.read_unread, View.ld_unit_zero (S := S512x1024) zero_offsets,
    View.ld_unit_zero (S := S1024x512) zero_offsets]
  rw [View.readCov_unit_zero (S := S512x512) arg6.view zero_offsets]

/-- After a point of the second kind the accumulator holds the accumulate payload over what the previous point left. -/
theorem acc_after_second (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : cond0_1 i)
    (x0 : Vec F S512x1024 .f32) (x1 : Vec F S1024x512 .f32) (xs0 : Vec F S512x512 .f32) :
    sout0_B_0 c i arg3 harg3 arg4 harg4 arg5 harg5 arg6 harg6 hc0 hc1 x0 x1 xs0 = k0_pay2 xs0 x0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero zero_offsets]
  simp only [View.readAt_eq_ld, harg3.read_unread, harg4.read_unread, harg6.read_unread,
    View.ld_unit_zero (S := S512x1024) zero_offsets, View.ld_unit_zero (S := S1024x512) zero_offsets,
    View.ld_unit_zero (S := S512x512) zero_offsets]

/-- … and the output tile holds the same: the accumulator read back after that store. -/
theorem out_after_second (c : Dev nD) (i : grid0.Coords) (arg3 : Memref sig .tc .vmem S512x1024 .f32) (harg3 : arg3.IsWhole) (arg4 : Memref sig .tc .vmem S1024x512 .f32) (harg4 : arg4.IsWhole) (arg5 : Memref sig .tc .vmem S512x512 .f32) (harg5 : arg5.IsWhole) (arg6 : Memref sig .tc .vmem S512x512 .f32) (harg6 : arg6.IsWhole) (hc0 : ¬cond0_0 i) (hc1 : cond0_1 i)
    (x0 : Vec F S512x1024 .f32) (x1 : Vec F S1024x512 .f32) (xs0 : Vec F S512x512 .f32) :
    out0_B_2 c i arg3 harg3 arg4 harg4 arg5 harg5 arg6 harg6 hc0 hc1 x0 x1 xs0 = k0_pay2 xs0 x0 x1 := by
  unfold out0_B_2
  rw [View.read_writes_eq_canon _ _ _ (cover0_B_2 c i arg3 harg3 arg4 harg4 arg5 harg5 arg6 harg6 hc0 hc1 x0 x1 xs0)]
  unfold kernelRun0_B
  dsimp only
  sl_unfold_words
  rw [View.canon_unit_zero zero_offsets, View.readCov_unit_zero (S := S512x512) arg6.view zero_offsets]
  simp only [View.readAt_eq_ld, harg3.read_unread, harg4.read_unread, harg6.read_unread,
    View.ld_unit_zero (S := S512x1024) zero_offsets, View.ld_unit_zero (S := S1024x512) zero_offsets,
    View.ld_unit_zero (S := S512x512) zero_offsets]

end Cert.ReferenceIdeal.RefValue

end
-- ==== Proof.RefValue.lean ====
/-
  The tiled program's result array is the product of its arguments.

  The grid has 16 × 4 × 2 = 128 points; point `t` has coordinates `(t / 8, t / 2 % 4, t % 2)`: a block of 512 rows,
  a block of 512 columns, and a half of the 2048 contracted coordinates. Its left tile is rows `512 (t / 8) …` and
  columns `1024 (t % 2) …` of `x`; its right tile is rows `1024 (t % 2) …` and columns `512 (t / 2 % 4) …` of the
  transposed weight; its output tile is rows `512 (t / 8) …`, columns `512 (t / 2 % 4) …` of the result. Only the odd
  points write their output tile back. An odd point `t` and the even point `t - 1` before it share the row block and
  the column block, and take the two halves of the contraction: what `t` writes back is two accumulate steps over
  zero, `(0 + X0 · W0) + X1 · W1`, with `X0, W0` the tiles of `t - 1` and `X1, W1` the tiles of `t` — the product at the
  array entry, by regrouping the contraction into its halves. The odd points' tiles cover the array: entry `(r, q)` lies
  in the tile of the odd point with row block `r / 512` and column block `q / 512`.
-/
import proofs.«103228_g2000009465871489_pallasbulk_303_2_alg».proof.Proof.Gen.ReferenceIdeal.Value
import proofs.«103228_g2000009465871489_pallasbulk_303_2_alg».proof.Proof.ProductSpec
import proofs.«103228_g2000009465871489_pallasbulk_303_2_alg».proof.Proof.RefPayloads
import proofs.«103228_g2000009465871489_pallasbulk_303_2_alg».proof.Proof.RefPieces
import Idealize.ShloMosaic.Lib.Pipeline.Value
import Idealize.ShloMosaic.Lib.StableHlo.Run

set_option maxRecDepth 16384

open scoped BigOperators

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The transposed weight: the host's transpose of the second argument. -/
abbrev wT (c : Dev nD) : S2048x2048.Idx → EReal :=
  transpose S2048x2048 [1, 0] (m ((c : Thread nD τ).loc main_arg1)) transposes_S2048x2048_S2048x2048_1_0

/-- The result the program should leave: the product of the first argument with the transposed weight. -/
abbrev result (c : Dev nD) : S8192x2048.Idx → EReal :=
  ProductSpec.product (m ((c : Thread nD τ).loc main_arg0)) (wT m c)

/-- The right operand's array as the region finds it: the host's transpose of the second argument. -/
theorem weight_at_entry (c : Dev nD) : (V m c main_v0 : S2048x2048.Idx → EReal) = wT m c := by
  dsimp only [Gen.V, Gen.hostOps0]
  after_results

/-- The block index of each operand at each of the 128 points, in closed form. -/
theorem idx_facts : ∀ t : Fin cfg0.N, win0_0.index t (0 : Fin 2) = t.val / 8 ∧ win0_0.index t (1 : Fin 2) = t.val % 2
    ∧ win0_1.index t (0 : Fin 2) = t.val % 2 ∧ win0_1.index t (1 : Fin 2) = t.val / 2 % 4
    ∧ win0_2.index t (0 : Fin 2) = t.val / 8 ∧ win0_2.index t (1 : Fin 2) = t.val / 2 % 4 :=
  (by decide +kernel : ∀ t : Fin grid0.N, _)

/-- After an even point the accumulator holds one accumulate step over zero, on that point's tiles. -/
theorem acc_after_even (c : Dev nD) (s : Fin cfg0.N) (h0 : s.val % 2 = 0) (h1 : ¬s.val % 2 = 1) :
    (outsAt0 m c s.val s.isLt).2 = k0_pay2 (F := Ideal) (k0_pay1 (F := Ideal)) (iblk m c 0 s) (iblk m c 1 s) := by
  rw [outsAt0_A m c s h0 h1]
  dsimp only
  exact acc_after_first (F := Ideal) c (grid0.coords s) (ms0_0 s) (hs0_0 s) (ms0_1 s) (hs0_1 s) (ms0_2 s) (hs0_2 s) scM0_0 (Memref.isWhole_whole _) ((hcond0_0 s).mpr h0) (fun h => h1 ((hcond0_1 s).mp h))
    (iblk m c 0 s) (iblk m c 1 s)

/-- What an odd point would write back: two accumulate steps over zero, on the tiles of the point before and its own. -/
theorem written_at_odd (c : Dev nD) (t : Fin cfg0.N) (h0 : ¬t.val % 2 = 0) (h1 : t.val % 2 = 1) (hs : t.val - 1 < cfg0.N) :
    (dats m 0 c).flushed 2 t = (cfg0.win 2).cut (grid0.coords t)
      (k0_pay2 (F := Ideal) (k0_pay2 (F := Ideal) (k0_pay1 (F := Ideal)) (iblk m c 0 ⟨t.val - 1, hs⟩) (iblk m c 1 ⟨t.val - 1, hs⟩))
        (iblk m c 0 t) (iblk m c 1 t)) := by
  rw [Value.flushed2_B m c t h0 h1]
  rw [out_after_second (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
    (iblk m c 0 t) (iblk m c 1 t) (outsAt0 m c (t.val - 1) (Nat.lt_of_le_of_lt (Nat.sub_le _ _) t.isLt)).2]
  rw [show (outsAt0 m c (t.val - 1) (Nat.lt_of_le_of_lt (Nat.sub_le _ _) t.isLt)).2
      = k0_pay2 (F := Ideal) (k0_pay1 (F := Ideal)) (iblk m c 0 ⟨t.val - 1, hs⟩) (iblk m c 1 ⟨t.val - 1, hs⟩) from
    acc_after_even m c ⟨t.val - 1, hs⟩ (by show (t.val - 1) % 2 = 0; omega) (by show ¬(t.val - 1) % 2 = 1; omega)]

/-- What a point that writes back writes is its tile of the product. -/
theorem flushed_eq (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  have h0 : ¬t.val % 2 = 0 := by omega
  have hN : cfg0.N = 128 := N_0
  have htN : t.val < cfg0.N := t.isLt
  have hs : t.val - 1 < cfg0.N := by omega
  rw [written_at_odd m c t h0 h1 hs]
  obtain ⟨f00, f01, f10, f11, f20, f21⟩ := idx_facts t
  obtain ⟨g00, g01, g10, g11, -, -⟩ := idx_facts ⟨t.val - 1, hs⟩
  have g00' : win0_0.index ⟨t.val - 1, hs⟩ (0 : Fin 2) = (t.val - 1) / 8 := g00
  have g01' : win0_0.index ⟨t.val - 1, hs⟩ (1 : Fin 2) = (t.val - 1) % 2 := g01
  have g10' : win0_1.index ⟨t.val - 1, hs⟩ (0 : Fin 2) = (t.val - 1) % 2 := g10
  have g11' : win0_1.index ⟨t.val - 1, hs⟩ (1 : Fin 2) = (t.val - 1) / 2 % 4 := g11
  funext j
  show k0_pay2 (F := Ideal) (k0_pay2 (F := Ideal) (k0_pay1 (F := Ideal)) (iblk m c 0 ⟨t.val - 1, hs⟩) (iblk m c 1 ⟨t.val - 1, hs⟩))
      (iblk m c 0 t) (iblk m c 1 t) j = result m c (((cfg0.win 2).blk t).view.emb j)
  refine (two_steps_apply (iblk m c 0 ⟨t.val - 1, hs⟩) (iblk m c 0 t) (iblk m c 1 ⟨t.val - 1, hs⟩) (iblk m c 1 t) j).trans ?_
  refine ProductSpec.halves_eq_product (m ((c : Thread nD τ).loc main_arg0)) (wT m c) (((cfg0.win 2).blk t).view.emb j)
    (fun k => iblk m c 0 ⟨t.val - 1, hs⟩ (ix2 (j 0) k)) (fun k => iblk m c 1 ⟨t.val - 1, hs⟩ (ix2 k (j 1)))
    (fun k => iblk m c 0 t (ix2 (j 0) k)) (fun k => iblk m c 1 t (ix2 k (j 1)))
    (fun k => ((cfg0.win 0).blk ⟨t.val - 1, hs⟩).view.emb (ix2 (j 0) k)) (fun k => ((cfg0.win 0).blk t).view.emb (ix2 (j 0) k))
    (fun k => ((cfg0.win 1).blk ⟨t.val - 1, hs⟩).view.emb (ix2 k (j 1))) (fun k => ((cfg0.win 1).blk t).view.emb (ix2 k (j 1)))
    (fun k => ?_) (fun k => ?_) (fun k => ?_) (fun k => ?_)
    (fun k => ⟨?_, ?_⟩) (fun k => ⟨?_, ?_⟩) (fun k => ⟨?_, ?_⟩) (fun k => ⟨?_, ?_⟩)
  · show V m c main_arg0 _ = _
    rw [V_main_arg0]
  · show (V m c main_v0 : S2048x2048.Idx → EReal) _ = _
    rw [weight_at_entry]
  · show V m c main_arg0 _ = _
    rw [V_main_arg0]
  · show (V m c main_v0 : S2048x2048.Idx → EReal) _ = _
    rw [weight_at_entry]
  · show win0_0.index ⟨t.val - 1, hs⟩ (0 : Fin 2) * 512 + 1 * (j 0).val = win0_2.index t (0 : Fin 2) * 512 + 1 * (j 0).val
    rw [g00', f20]; omega
  · show win0_0.index ⟨t.val - 1, hs⟩ (1 : Fin 2) * 1024 + 1 * k.val = k.val
    rw [g01']; omega
  · show win0_0.index t (0 : Fin 2) * 512 + 1 * (j 0).val = win0_2.index t (0 : Fin 2) * 512 + 1 * (j 0).val
    rw [f00, f20]
  · show win0_0.index t (1 : Fin 2) * 1024 + 1 * k.val = 1024 + k.val
    rw [f01]; omega
  · show win0_1.index ⟨t.val - 1, hs⟩ (0 : Fin 2) * 1024 + 1 * k.val = k.val
    rw [g10']; omega
  · show win0_1.index ⟨t.val - 1, hs⟩ (1 : Fin 2) * 512 + 1 * (j 1).val = win0_2.index t (1 : Fin 2) * 512 + 1 * (j 1).val
    rw [g11', f21]; omega
  · show win0_1.index t (0 : Fin 2) * 1024 + 1 * k.val = 1024 + k.val
    rw [f10]; omega
  · show win0_1.index t (1 : Fin 2) * 512 + 1 * (j 1).val = win0_2.index t (1 : Fin 2) * 512 + 1 * (j 1).val
    rw [f11, f21]

/-- An index of the result array is in point `t`'s tile iff each coordinate is in the tile's range on its axis. -/
theorem mem_tile (t : Fin cfg0.N) (i : S8192x2048.Idx) :
    i ∈ ((cfg0.win 2).blk t).view.set ↔ ∀ a : Fin 2, win0_2.index t a * S512x512.size a ≤ (i a).val
      ∧ (i a).val < win0_2.index t a * S512x512.size a + S512x512.size a := by
  show i ∈ ((View.whole main_v1).slice (win0_2.rect t)).set ↔ _
  rw [View.set_slice_whole, Rect.mem_set_unit]
  exact Iff.rfl

/-- Every index of the result array lies in the tile of an odd point: the one with its row block and column block. -/
theorem cover (i : S8192x2048.Idx) :
    ∃ t : Fin cfg0.N, (cfg0.win 2).flush t = true ∧ i ∈ ((cfg0.win 2).blk t).view.set := by
  have hi0 : (i 0).val < 8192 := (i 0).isLt
  have hi1 : (i 1).val < 2048 := (i 1).isLt
  have hN : cfg0.N = 128 := N_0
  have ht : ((i 0).val / 512 * 4 + (i 1).val / 512) * 2 + 1 < cfg0.N := by rw [hN]; omega
  obtain ⟨-, -, -, -, e20, e21⟩ := idx_facts ⟨((i 0).val / 512 * 4 + (i 1).val / 512) * 2 + 1, ht⟩
  have e20' : win0_2.index ⟨((i 0).val / 512 * 4 + (i 1).val / 512) * 2 + 1, ht⟩ (0 : Fin 2)
      = (((i 0).val / 512 * 4 + (i 1).val / 512) * 2 + 1) / 8 := e20
  have e21' : win0_2.index ⟨((i 0).val / 512 * 4 + (i 1).val / 512) * 2 + 1, ht⟩ (1 : Fin 2)
      = (((i 0).val / 512 * 4 + (i 1).val / 512) * 2 + 1) / 2 % 4 := e21
  refine ⟨⟨((i 0).val / 512 * 4 + (i 1).val / 512) * 2 + 1, ht⟩,
    (flush0_2 _).mpr (by show (((i 0).val / 512 * 4 + (i 1).val / 512) * 2 + 1) % 2 = 1; omega), ?_⟩
  rw [mem_tile]
  intro a
  match a with
  | ⟨0, _⟩ =>
    show win0_2.index ⟨((i 0).val / 512 * 4 + (i 1).val / 512) * 2 + 1, ht⟩ (0 : Fin 2) * 512 ≤ (i 0).val
      ∧ (i 0).val < win0_2.index ⟨((i 0).val / 512 * 4 + (i 1).val / 512) * 2 + 1, ht⟩ (0 : Fin 2) * 512 + 512
    rw [e20']; omega
  | ⟨1, _⟩ =>
    show win0_2.index ⟨((i 0).val / 512 * 4 + (i 1).val / 512) * 2 + 1, ht⟩ (1 : Fin 2) * 512 ≤ (i 1).val
      ∧ (i 1).val < win0_2.index ⟨((i 0).val / 512 * 4 + (i 1).val / 512) * 2 + 1, ht⟩ (1 : Fin 2) * 512 + 512
    rw [e21']; omega

/-- The result array after the run is the product. -/
theorem final (c : Dev nD) : (dats m 0 c).arrAt 2 cfg0.N = result m c :=
  (dats m 0 c).arrAt_eq_of_cover 2 (result m c) (flushed_eq m c) cover

/-- The run, with the result array at the product of the arguments and the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ReferenceIdeal.RefValue

end
-- ==== Proof.lean ====
/-
  A dense linear layer without bias, `out = x · weightᵀ`, computed two ways and shown equal on the extended reals.

  One program transposes the weight once, then for each block of 512 rows multiplies the rows' full [512, 2048] tile by
  the whole transposed weight: entry `(r, q)` is the sum over all 2048 contracted coordinates of
  `x (r, k) * wᵀ (k, q)`. The other transposes the weight the same way and tiles all three axes: for each block of 512
  rows and 512 columns it zeroes an accumulator, adds the product over the first 1024 contracted coordinates, then the
  product over the last 1024, and writes the accumulator out: entry `(r, q)` is
  `(0 + ∑_{k < 1024} x (r, k) * wᵀ (k, q)) + ∑_{k < 1024} x (r, 1024 + k) * wᵀ (1024 + k, q)`. Narrowing to bf16 is the
  identity on the extended reals, adding zero changes nothing, and a finite sum may be regrouped in a commutative
  monoid, so the two results are the same function of the arguments (Proof/ProductSpec.lean) — for every input, so the
  precondition that the inputs are finite is not used. Proof/KernelValue.lean and Proof/RefValue.lean read each
  program's result array as that function; the idealized program is the original's own text, so nothing is owed for
  the idealization.
-/
import proofs.«103228_g2000009465871489_pallasbulk_303_2_alg».proof.Defs
import proofs.«103228_g2000009465871489_pallasbulk_303_2_alg».proof.Proof.Gen.Kernel
import proofs.«103228_g2000009465871489_pallasbulk_303_2_alg».proof.Proof.Gen.Kernel.Skeleton
import proofs.«103228_g2000009465871489_pallasbulk_303_2_alg».proof.Proof.Gen.Kernel.Launch
import proofs.«103228_g2000009465871489_pallasbulk_303_2_alg».proof.Proof.Gen.Kernel.Points
import proofs.«103228_g2000009465871489_pallasbulk_303_2_alg».proof.Proof.Gen.Kernel.Frame
import proofs.«103228_g2000009465871489_pallasbulk_303_2_alg».proof.Proof.Gen.KernelIdeal
import proofs.«103228_g2000009465871489_pallasbulk_303_2_alg».proof.Proof.Gen.KernelIdeal.Skeleton
import proofs.«103228_g2000009465871489_pallasbulk_303_2_alg».proof.Proof.Gen.KernelIdeal.Launch
import proofs.«103228_g2000009465871489_pallasbulk_303_2_alg».proof.Proof.Gen.KernelIdeal.Points
import proofs.«103228_g2000009465871489_pallasbulk_303_2_alg».proof.Proof.Gen.KernelIdeal.Frame
import proofs.«103228_g2000009465871489_pallasbulk_303_2_alg».proof.Proof.Gen.ReferenceIdeal
import proofs.«103228_g2000009465871489_pallasbulk_303_2_alg».proof.Proof.Gen.ReferenceIdeal.Skeleton
import proofs.«103228_g2000009465871489_pallasbulk_303_2_alg».proof.Proof.Gen.ReferenceIdeal.Launch
import proofs.«103228_g2000009465871489_pallasbulk_303_2_alg».proof.Proof.Gen.ReferenceIdeal.Points
import proofs.«103228_g2000009465871489_pallasbulk_303_2_alg».proof.Proof.Gen.ReferenceIdeal.Frame
import proofs.«103228_g2000009465871489_pallasbulk_303_2_alg».proof.Proof.Gen.Pre_finite_inputs
import proofs.«103228_g2000009465871489_pallasbulk_303_2_alg».proof.Proof.Gen.KernelIdeal.Value
import proofs.«103228_g2000009465871489_pallasbulk_303_2_alg».proof.Proof.Gen.ReferenceIdeal.Value
import proofs.«103228_g2000009465871489_pallasbulk_303_2_alg».proof.Proof.KernelValue
import proofs.«103228_g2000009465871489_pallasbulk_303_2_alg».proof.Proof.RefValue
import Idealize.ShloMosaic.Adequacy
import Idealize.ShloMosaic.Init

noncomputable section

namespace Cert.Proof

open Idealize.ShloMosaic Idealize.ShloMosaic.TcCoe Idealize.SL.Sem

/-- The original program runs to the end without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the tiled program. -/
theorem frame_referenceIdeal : Cert.frame_ReferenceIdeal := fun m ρ _ => Cert.ReferenceIdeal.Gen.frame m ρ

/-- No operation was rewritten for the reading on the extended reals: nothing to state. -/
theorem preserves : Cert.preserves_Kernel_KernelIdeal := trivial

/-- From memories that agree on the arguments both programs end with the result array at the product of the first
    argument with the transposed second. -/
theorem algebraic : Cert.algebraic_KernelIdeal_ReferenceIdeal := by
  intro m ρ m' ρ' _ hagree
  refine ⟨fun c => Cert.KernelIdeal.KerValue.result m c, Cert.KernelIdeal.KerValue.run m ρ, ?_⟩
  refine (θ_run Cert.ReferenceIdeal.defs _ _).mono (fun _ h c => ⟨(h c).1.trans ?_, (h c).2⟩)
    (Cert.ReferenceIdeal.RefValue.run m' ρ')
  dsimp only [Cert.ReferenceIdeal.RefValue.result, Cert.ReferenceIdeal.RefValue.wT, Cert.KernelIdeal.KerValue.result,
    Cert.KernelIdeal.KerValue.wT]
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
